-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x256 .f32) (main_arg4 : FVec F S256 .f32) (main_arg5 : FVec F S256x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x2 : Shape := ⟨2, ![100000, 2]⟩
abbrev S1x256 : Shape := ⟨2, ![1, 256]⟩
abbrev S100000x64 : Shape := ⟨2, ![100000, 64]⟩
abbrev S5000x128 : Shape := ⟨2, ![5000, 128]⟩
abbrev S5000x2 : Shape := ⟨2, ![5000, 2]⟩
abbrev S5000x64 : Shape := ⟨2, ![5000, 64]⟩
abbrev S5000x256 : Shape := ⟨2, ![5000, 256]⟩
abbrev S5000x1 : Shape := ⟨2, ![5000, 1]⟩
abbrev S1600000x64 : Shape := ⟨2, ![1600000, 64]⟩
abbrev S1x64 : Shape := ⟨2, ![1, 64]⟩

abbrev nBuf : Space → Nat
  | .hbm => 73
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .bf16⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .bf16⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S100000x1, .f32⟩
  | .hbm, ⟨52, _⟩ => ⟨S100000x1, .f32⟩
  | .hbm, ⟨53, _⟩ => ⟨S100000x2, .f32⟩
  | .hbm, ⟨54, _⟩ => ⟨S1x256, .f32⟩
  | .hbm, ⟨55, _⟩ => ⟨S100000x64, .bf16⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .bf16⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S100000x1, .f32⟩
  | .hbm, ⟨71, _⟩ => ⟨S1x64, .f32⟩
  | .hbm, ⟨72, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x2, .f32⟩
  | .local _ .vmem, ⟨3, _⟩ => ⟨S5000x2, .f32⟩
  | .local _ .vmem, ⟨4, _⟩ => ⟨S128x256, .f32⟩
  | .local _ .vmem, ⟨5, _⟩ => ⟨S1x256, .f32⟩
  | .local _ .vmem, ⟨6, _⟩ => ⟨S256x64, .f32⟩
  | .local _ .vmem, ⟨7, _⟩ => ⟨S5000x64, .bf16⟩
  | .local _ .vmem, ⟨8, _⟩ => ⟨S5000x64, .bf16⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_cst_4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_5 : Ref sig .tc := ⟨.hbm, 26, rfl⟩
abbrev main_call1_v0 : Ref sig .tc := ⟨.hbm, 27, rfl⟩
abbrev main_call1_v1 : Ref sig .tc := ⟨.hbm, 28, rfl⟩
abbrev main_v11 : Ref sig .tc := ⟨.hbm, 29, rfl⟩
abbrev main_cst_6 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_7 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_8 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_9 : Ref sig .tc := ⟨.hbm, 56, rfl⟩
abbrev main_v34 : Ref sig .tc := ⟨.hbm, 57, rfl⟩
abbrev main_v35 : Ref sig .tc := ⟨.hbm, 58, rfl⟩
abbrev main_c_10 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_11 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  bcast_S_S100000x128 : S_.BroadcastsInDim S100000x128 (![] : Fin 0 → Fin S100000x128.rank)
  concatenates_S100000x1_S100000x1_S100000x2_d1 : Shape.Concatenates [S100000x1, S100000x1] S100000x2 1
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_0_S5000x1 : S5000x2.Slices ![0, 0] S5000x1
  slices_S5000x2_o0_1_S5000x1 : S5000x2.Slices ![0, 1] S5000x1
  broadcasts_S5000x1_S5000x256 : S5000x1.Broadcasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x256_S5000x256_1_0_0_1_n_n_wf : DotDims.WF S5000x128 S128x256 S5000x256 [1] [0] [0] [1] [] []
  dot_S5000x256_S256x64_S5000x64_1_0_0_1_n_n_wf : DotDims.WF S5000x256 S256x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S100000x2.size a
  hwx0_1 : ∀ i : grid0.Coords, EltTy.bits .f32 = 32 ∨ (Rect.block (s := S100000x2) S5000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S256x64.size a
  hwx0_4 : ∀ i : grid0.Coords, EltTy.bits .f32 = 32 ∨ (Rect.block (s := S256x64) S256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .bf16 = 32 ∨ (Rect.block (s := S100000x64) S5000x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v28) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x256 : Shape := ⟨2, ![100000, 256]⟩
abbrev S1x256 : Shape := ⟨2, ![1, 256]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x256, .f32⟩
  | .hbm, ⟨50, _⟩ => ⟨S100000x1, .f32⟩
  | .hbm, ⟨51, _⟩ => ⟨S100000x256, .f32⟩
  | .hbm, ⟨52, _⟩ => ⟨S100000x256, .f32⟩
  | .hbm, ⟨53, _⟩ => ⟨S1x256, .f32⟩
  | .hbm, ⟨54, _⟩ => ⟨S100000x256, .f32⟩
  | .hbm, ⟨55, _⟩ => ⟨S100000x256, .f32⟩
  | .hbm, ⟨56, _⟩ => ⟨S_, .f32⟩
  | .hbm, ⟨57, _⟩ => ⟨S100000x256, .f32⟩
  | .hbm, ⟨58, _⟩ => ⟨S100000x256, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S_, .f32⟩
  | .hbm, ⟨73, _⟩ => ⟨S1600000, .f32⟩
  | .hbm, ⟨74, _⟩ => ⟨S_, .f32⟩
  | .hbm, ⟨75, _⟩ => ⟨S100000, .f32⟩
  | .hbm, ⟨76, _⟩ => ⟨S1600000x1, .i32⟩
  | .hbm, ⟨77, _⟩ => ⟨S100000, .f32⟩
  | .hbm, ⟨78, _⟩ => ⟨S_, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000x1, .f32⟩
  | .hbm, ⟨86, _⟩ => ⟨S100000x256, .f32⟩
  | .hbm, ⟨87, _⟩ => ⟨S100000x256, .f32⟩
  | .hbm, ⟨88, _⟩ => ⟨S100000x64, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x64, .f32⟩
  | .hbm, ⟨98, _⟩ => ⟨S_, .f32⟩
  | .hbm, ⟨99, _⟩ => ⟨S100000x64, .f32⟩
  | .hbm, ⟨100, _⟩ => ⟨S1600000x1, .i32⟩
  | .hbm, ⟨101, _⟩ => ⟨S100000x64, .f32⟩
  | .hbm, ⟨102, _⟩ => ⟨S100000x1, .f32⟩
  | .hbm, ⟨103, _⟩ => ⟨S100000x64, .f32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_cst_4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_5 : Ref sig .tc := ⟨.hbm, 26, rfl⟩
abbrev main_call1_v0 : Ref sig .tc := ⟨.hbm, 27, rfl⟩
abbrev main_call1_v1 : Ref sig .tc := ⟨.hbm, 28, rfl⟩
abbrev main_v11 : Ref sig .tc := ⟨.hbm, 29, rfl⟩
abbrev main_cst_6 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_7 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call2_cst : Ref sig .tc := ⟨.hbm, 56, rfl⟩
abbrev main_call2_v0 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_cst_10 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_11 : Ref sig .tc := ⟨.hbm, 65, rfl⟩
abbrev main_call3_v0 : Ref sig .tc := ⟨.hbm, 66, rfl⟩
abbrev main_call3_v1 : Ref sig .tc := ⟨.hbm, 67, rfl⟩
abbrev main_v39 : Ref sig .tc := ⟨.hbm, 68, rfl⟩
abbrev main_cst_12 : Ref sig .tc := ⟨.hbm, 69, rfl⟩
abbrev main_v40 : Ref sig .tc := ⟨.hbm, 70, rfl⟩
abbrev main_v41 : Ref sig .tc := ⟨.hbm, 71, rfl⟩
abbrev main_cst_13 : Ref sig .tc := ⟨.hbm, 72, rfl⟩
abbrev main_v42 : Ref sig .tc := ⟨.hbm, 73, rfl⟩
abbrev main_cst_14 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_15 : Ref sig .tc := ⟨.hbm, 78, rfl⟩
abbrev main_call4_v0 : Ref sig .tc := ⟨.hbm, 79, rfl⟩
abbrev main_call4_v1 : Ref sig .tc := ⟨.hbm, 80, rfl⟩
abbrev main_v46 : Ref sig .tc := ⟨.hbm, 81, rfl⟩
abbrev main_cst_16 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_c_17 : Ref sig .tc := ⟨.hbm, 89, rfl⟩
abbrev main_v53 : Ref sig .tc := ⟨.hbm, 90, rfl⟩
abbrev main_v54 : Ref sig .tc := ⟨.hbm, 91, rfl⟩
abbrev main_c_18 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_19 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  The idealized kernel program's run, with its result named.

  The program is two kernel launches among stretches of host operations. Every weakly fair execution terminates without
  a fault; the argument arrays end as launched; and the result array ends holding what the second launch's write-backs
  leave in it, which is the last boundary of the fold of buffer contents through the program (the fold's value at the
  result buffer). The later modules read that fold back to the arguments.
-/
import proofs.«154429_j16252156248489_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run_result : θ_run defs (onTc (τ := τ) (main (F := F))) ⟨m, fun _ => 0, ρ⟩ (fun r => ∀ c : Dev nD,
      r.2.mem ((c.tc : Thread nD τ).loc main_v47) = W8 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v47 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Whole

end
-- ==== Proof.HostSide.lean ====
/-
  The host stretches of the idealized kernel program, read back to the arguments.

  Before the first launch the host computes, from the edge lists src and dst: the degree factors (the clamped degree to
  the power −1/2, one vector per edge list); the first neighbourhood sum, which gathers the rows of the features scaled by
  the outgoing-degree factor at the source of every edge and adds them into the row of the edge's destination; the two
  factors side by side as the columns of one array; and the first bias as a row. Between the launches it gathers and sums
  the first launch's result along the same edges, and lays the incoming-degree factor out as a column and the second bias
  as a row. Each buffer a launch reads is therefore a fixed function of the argument arrays (and, for the second launch,
  of the first launch's result array); the argument buffers themselves are never written.
-/
import proofs.«154429_j16252156248489_2_alg».proof.Proof.Gen.KernelIdeal.Frame
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-- The degree factor of every node for one edge list: the number of edges naming the node, at least 1, to the power −1/2. -/
def degNorm (idx : (⟨S1600000, .i32⟩ : BufTy).Contents (Elt F)) : (⟨S100000, .f32⟩ : BufTy).Contents (Elt F) :=
  Host.powf
    (maximumf (broadcastInDim S100000 ![] bcast_S_S100000 (id (constant S_ .f32 0x3F800000#32)))
      (Host.scatterAdd scatter_S100000_S1600000x1_S1600000_n_0_0_1
        (broadcastInDim S100000 ![] bcast_S_S100000 (constant S_ .f32 0x00000000#32))
        (broadcastInDim S1600000x1 ![0] bcast_S1600000_S1600000x1_0 idx)
        (broadcastInDim S1600000 ![] bcast_S_S1600000 (constant S_ .f32 0x3F800000#32))))
    (broadcastInDim S100000 ![] bcast_S_S100000 (constant S_ .f32 0xBF000000#32))

/-- The edge list as gather indices: a negative entry counts from the end, and the list stands as a column. -/
def wrapIdx (idx : (⟨S1600000, .i32⟩ : BufTy).Contents (Elt F)) : (⟨S1600000x1, .i32⟩ : BufTy).Contents (Elt F) :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

/-- The first neighbourhood sum: the features scaled by the source's outgoing-degree factor, summed over the edges into
    each destination. -/
def agg1 (h : (⟨S100000x128, .f32⟩ : BufTy).Contents (Elt F)) (src dst : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (extf .f32 (Host.gather gather_S100000x128_S1600000x1_S1600000x128_1_0_n_n_0_1_1128
      (truncf .bf16 (mulf h (broadcastInDim S100000x128 ![0, 1] bcast_S100000x1_S100000x128_0_1
        (broadcastInDim S100000x1 ![0] bcast_S100000_S100000x1_0 (degNorm src)))) bitsLt_bf16_f32)
      (wrapIdx src)) bitsLt_bf16_f32)

/-- The two degree factors as the columns of one array: incoming first, outgoing second. -/
def normCat (src dst : (⟨S1600000, .i32⟩ : BufTy).Contents (Elt F)) : (⟨S100000x2, .f32⟩ : BufTy).Contents (Elt F) :=
  concatenate S100000x2 1
    [⟨S100000x1, broadcastInDim S100000x1 ![0] bcast_S100000_S100000x1_0 (degNorm dst)⟩,
     ⟨S100000x1, broadcastInDim S100000x1 ![0] bcast_S100000_S100000x1_0 (degNorm src)⟩]
    concatenates_S100000x1_S100000x1_S100000x2_d1

/-- The second neighbourhood sum: the projected features gathered at the source of every edge and summed into its
    destination. -/
def agg2 (p : (⟨S100000x64, .bf16⟩ : BufTy).Contents (Elt F)) (src dst : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (extf .f32 (Host.gather gather_S100000x64_S1600000x1_S1600000x64_1_0_n_n_0_1_164 p (wrapIdx src)) bitsLt_bf16_f32)

variable (m : (ℓ : Loc nD τ sig) → Buf (Elt F) ℓ) (ρ : Dev nD → PrngReg)

/-! ## What the first launch finds -/

set_option maxHeartbeats 4000000 in
theorem entry_agg1 (c : Dev nD) : V5 m ρ c main_v28
    = agg1 (m ((c : Thread nD τ).loc main_arg0)) (m ((c : Thread nD τ).loc main_arg1)) (m ((c : Thread nD τ).loc main_arg2)) := by
  show StableHlo.after hostOps0_4 (StableHlo.after hostOps0_3 (StableHlo.after hostOps0_2 (StableHlo.after hostOps0_1 (StableHlo.after hostOps0 (W0 m ρ c))))) (Proc.devRef .tc main_v28) = _
  simp only [hostOps0, hostOps0_1, hostOps0_2, hostOps0_3, hostOps0_4]
  after_results_simp
  rfl

set_option maxHeartbeats 4000000 in
theorem entry_normCat (c : Dev nD) : V5 m ρ c main_v31
    = normCat (m ((c : Thread nD τ).loc main_arg1)) (m ((c : Thread nD τ).loc main_arg2)) := by
  show StableHlo.after hostOps0_4 (StableHlo.after hostOps0_3 (StableHlo.after hostOps0_2 (StableHlo.after hostOps0_1 (StableHlo.after hostOps0 (W0 m ρ c))))) (Proc.devRef .tc main_v31) = _
  simp only [hostOps0, hostOps0_1, hostOps0_2, hostOps0_3, hostOps0_4]
  after_results
  rfl

set_option maxHeartbeats 4000000 in
theorem entry_b1 (c : Dev nD) : V5 m ρ c main_v32
    = shapeCast S1x256 (m ((c : Thread nD τ).loc main_arg4)) shapeCasts_S256_S1x256 := by
  show StableHlo.after hostOps0_4 (StableHlo.after hostOps0_3 (StableHlo.after hostOps0_2 (StableHlo.after hostOps0_1 (StableHlo.after hostOps0 (W0 m ρ c))))) (Proc.devRef .tc main_v32) = _
  simp only [hostOps0, hostOps0_1, hostOps0_2, hostOps0_3, hostOps0_4]
  after_results_simp
  rfl

set_option maxHeartbeats 4000000 in
/-- A buffer the stretches before the first launch never write keeps its launch contents: the arguments. -/
theorem entry_arg (c : Dev nD) :
    W5 m ρ c (Proc.devRef .tc main_arg1) = m ((c : Thread nD τ).loc main_arg1)
    ∧ W5 m ρ c (Proc.devRef .tc main_arg2) = m ((c : Thread nD τ).loc main_arg2)
    ∧ W5 m ρ c (Proc.devRef .tc main_arg3) = m ((c : Thread nD τ).loc main_arg3)
    ∧ W5 m ρ c (Proc.devRef .tc main_arg5) = m ((c : Thread nD τ).loc main_arg5)
    ∧ W5 m ρ c (Proc.devRef .tc main_arg6) = m ((c : Thread nD τ).loc main_arg6) := by
  refine ⟨?_, ?_, ?_, ?_, ?_⟩ <;>
  · show StableHlo.after hostOps0_4 (StableHlo.after hostOps0_3 (StableHlo.after hostOps0_2 (StableHlo.after hostOps0_1 (StableHlo.after hostOps0 (W0 m ρ c))))) _ = _
    simp only [hostOps0, hostOps0_1, hostOps0_2, hostOps0_3, hostOps0_4]
    after_results_simp

set_option maxHeartbeats 4000000 in
theorem entry_normIn (c : Dev nD) : W5 m ρ c (Proc.devRef .tc main_v13) = degNorm (m ((c : Thread nD τ).loc main_arg2)) := by
  show StableHlo.after hostOps0_4 (StableHlo.after hostOps0_3 (StableHlo.after hostOps0_2 (StableHlo.after hostOps0_1 (StableHlo.after hostOps0 (W0 m ρ c))))) (Proc.devRef .tc main_v13) = _
  simp only [hostOps0, hostOps0_1, hostOps0_2, hostOps0_3, hostOps0_4]
  after_results_simp
  rfl

/-! ## What the second launch finds -/

set_option maxHeartbeats 4000000 in
theorem mid_agg2 (c : Dev nD) : V7 m ρ c main_v44
    = agg2 (W6 m ρ c (Proc.devRef .tc main_v33)) (m ((c : Thread nD τ).loc main_arg1)) (m ((c : Thread nD τ).loc main_arg2)) := by
  show StableHlo.after hostOps1 (W6 m ρ c) (Proc.devRef .tc main_v44) = _
  simp only [hostOps1]
  after_results_simp
  rw [W6_of_ne m ρ c main_arg1 (by decide), W6_of_ne m ρ c main_arg2 (by decide), (entry_arg m ρ c).1, (entry_arg m ρ c).2.1]
  rfl

set_option maxHeartbeats 4000000 in
theorem mid_normIn (c : Dev nD) : V7 m ρ c main_v45
    = shapeCast S100000x1 (degNorm (m ((c : Thread nD τ).loc main_arg2))) shapeCasts_S100000_S100000x1 := by
  show StableHlo.after hostOps1 (W6 m ρ c) (Proc.devRef .tc main_v45) = _
  simp only [hostOps1]
  after_results_simp
  rw [W6_of_ne m ρ c main_v13 (by decide), entry_normIn m ρ c]
  rfl

set_option maxHeartbeats 4000000 in
theorem mid_b2 (c : Dev nD) : V7 m ρ c main_v46
    = shapeCast S1x64 (m ((c : Thread nD τ).loc main_arg6)) shapeCasts_S64_S1x64 := by
  show StableHlo.after hostOps1 (W6 m ρ c) (Proc.devRef .tc main_v46) = _
  simp only [hostOps1]
  after_results_simp
  rw [W6_of_ne m ρ c main_arg6 (by decide), (entry_arg m ρ c).2.2.2.2]
  rfl

end Cert.KernelIdeal.HostSide

end
-- ==== Proof.GcnSpec.lean ====
/-
  The two dense stages of a two-layer graph convolution, entry by entry, on the extended reals.

  After the first neighbourhood sum a node r carries 128 aggregated features a(r, ·) and two degree factors
  nc(r, 0) (incoming) and nc(r, 1) (outgoing). The hidden feature k of the node is
      y(r, k) = max((∑ c, a(r, c) · w1(c, k)) · nc(r, 0) + b1(k), 0),
  and the node's 64 projected features, scaled for the next neighbourhood sum, are
      p(r, j) = ∑ k, (y(r, k) · nc(r, 1)) · w2(k, j).
  After the second neighbourhood sum the output is  g(r, j) · d(r) + b2(j).
  Both are stated for any number n of rows, so that the same formula speaks of a block of rows and of the whole array:
  an entry of row r depends on row r of the row-indexed operands only.
-/
import Idealize.ShloMosaic.PureOps.Ideal
import Idealize.ShloMosaic.Lib.ValueIdx

noncomputable section

open scoped BigOperators

namespace Idealize.ShloMosaic.GcnSpec

open Idealize.ShloMosaic Idealize.ShloMosaic.ValueIdx

/-- The projected feature (r, j): the hidden layer with its rectifier, scaled by the outgoing-degree factor, times w2. -/
def projAt {n : ℕ} (a : (⟨2, ![n, 128]⟩ : Shape).Idx → EReal) (nc : (⟨2, ![n, 2]⟩ : Shape).Idx → EReal)
    (w1 : (⟨2, ![128, 256]⟩ : Shape).Idx → EReal) (b1 : (⟨2, ![1, 256]⟩ : Shape).Idx → EReal)
    (w2 : (⟨2, ![256, 64]⟩ : Shape).Idx → EReal) (r : Fin n) (j : Fin 64) : EReal :=
  ∑ k : Fin 256,
    (max ((∑ c : Fin 128, a (ix2 r c) * w1 (ix2 c k)) * nc (ix2 r (0 : Fin 2)) + b1 (ix2 (0 : Fin 1) k))
        (Ideal.ofBits .f32 0x00000000#32) * nc (ix2 r (1 : Fin 2))) * w2 (ix2 k j)

/-- The projected features as an array. -/
def proj {n : ℕ} (a : (⟨2, ![n, 128]⟩ : Shape).Idx → EReal) (nc : (⟨2, ![n, 2]⟩ : Shape).Idx → EReal)
    (w1 : (⟨2, ![128, 256]⟩ : Shape).Idx → EReal) (b1 : (⟨2, ![1, 256]⟩ : Shape).Idx → EReal)
    (w2 : (⟨2, ![256, 64]⟩ : Shape).Idx → EReal) : (⟨2, ![n, 64]⟩ : Shape).Idx → EReal :=
  fun i => projAt a nc w1 b1 w2 (i 0) (i 1)

/-- A projected feature of row r of one set of operands is that of row r' of another when the two rows agree. -/
theorem projAt_congr {n n' : ℕ} (a : (⟨2, ![n, 128]⟩ : Shape).Idx → EReal) (nc : (⟨2, ![n, 2]⟩ : Shape).Idx → EReal)
    (a' : (⟨2, ![n', 128]⟩ : Shape).Idx → EReal) (nc' : (⟨2, ![n', 2]⟩ : Shape).Idx → EReal)
    (w1 : (⟨2, ![128, 256]⟩ : Shape).Idx → EReal) (b1 : (⟨2, ![1, 256]⟩ : Shape).Idx → EReal)
    (w2 : (⟨2, ![256, 64]⟩ : Shape).Idx → EReal) (r : Fin n) (r' : Fin n') (j : Fin 64)
    (ha : ∀ c, a (ix2 r c) = a' (ix2 r' c)) (hn : ∀ e, nc (ix2 r e) = nc' (ix2 r' e)) :
    projAt a nc w1 b1 w2 r j = projAt a' nc' w1 b1 w2 r' j := by
  unfold projAt
  refine Finset.sum_congr rfl fun k _ => ?_
  rw [hn 0, hn 1]
  refine congrArg (fun s => (max (s * nc' (ix2 r' (0 : Fin 2)) + b1 (ix2 (0 : Fin 1) k)) (Ideal.ofBits .f32 0x00000000#32)
    * nc' (ix2 r' (1 : Fin 2))) * w2 (ix2 k j)) ?_
  exact Finset.sum_congr rfl fun c _ => by rw [ha c]

/-- The output entry (r, j): the second neighbourhood sum scaled by the incoming-degree factor, plus the bias. -/
def outAt {n : ℕ} (g : (⟨2, ![n, 64]⟩ : Shape).Idx → EReal) (d : (⟨2, ![n, 1]⟩ : Shape).Idx → EReal)
    (b2 : (⟨2, ![1, 64]⟩ : Shape).Idx → EReal) (r : Fin n) (j : Fin 64) : EReal :=
  g (ix2 r j) * d (ix2 r (0 : Fin 1)) + b2 (ix2 (0 : Fin 1) j)

/-- The output as an array. -/
def out {n : ℕ} (g : (⟨2, ![n, 64]⟩ : Shape).Idx → EReal) (d : (⟨2, ![n, 1]⟩ : Shape).Idx → EReal)
    (b2 : (⟨2, ![1, 64]⟩ : Shape).Idx → EReal) : (⟨2, ![n, 64]⟩ : Shape).Idx → EReal :=
  fun i => outAt g d b2 (i 0) (i 1)

end Idealize.ShloMosaic.GcnSpec

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Bodies.lean ====
/-
  What the two kernel bodies compute, entry by entry, on the extended reals.

  The first body takes a block of 5000 aggregated rows, the block's two columns of degree factors, the two weight
  matrices and the first bias row, and stores the projected features of GcnSpec.projAt: two matrix products into zero
  accumulators with the row scalings, the bias and the rectifier between them; the changes of float format on the way are
  the identity on extended reals. The second body stores GcnSpec.outAt: the block times its column of degree factors,
  spread along the rows, plus the bias row.
-/
import proofs.«154429_j16252156248489_2_alg».proof.Proof.Gen.KernelIdeal.Skeleton
import proofs.«154429_j16252156248489_2_alg».proof.Proof.GcnSpec
import proofs.«154429_j16252156248489_2_alg».proof.Proof.LibContract
import proofs.«154429_j16252156248489_2_alg».proof.Proof.LibColumn
import Idealize.ShloMosaic.Lib.ValueLayout
import Idealize.ShloMosaic.Lib.Pipeline.Value
import Idealize.ShloMosaic.PureOps.Ideal.Laws

noncomputable section

open scoped BigOperators

namespace Cert.KernelIdeal.Bodies

open Cert.KernelIdeal Cert.KernelIdeal.Gen
open Idealize.ShloMosaic Idealize.ShloMosaic.ValueIdx Idealize.ShloMosaic.GcnSpec

/-- The first body's stored value at (p, q) is the projected feature q of the block's row p. -/
theorem mid_apply (x0 : Vec Ideal S5000x128 .f32) (x2 : Vec Ideal S128x256 .f32) (x1 : Vec Ideal S5000x2 .f32)
    (x3 : Vec Ideal S1x256 .f32) (x4 : Vec Ideal S256x64 .f32) (p : Fin 5000) (q : Fin 64) :
    k0_pay1 (F := Ideal) x0 x2 x1 x3 x4 (ix2 p q) = projAt x0 x1 x2 x3 x4 p q := by
  unfold k0_pay1 projAt
  show matmul dot_S5000x256_S256x64_S5000x64_1_0_0_1_n_n none _ _ (constant (F := Ideal) S5000x64 .f32 0x00000000#32) (ix2 p q) = _
  refine (Ideal.matmul_constant_zero_apply dot_S5000x256_S256x64_S5000x64_1_0_0_1_n_n none _ _ (ix2 p q)).trans ?_
  refine (Contract2.sum_contr_eq_sum_fin (n0 := 5000) (n1 := 64) (K := 256) dot_S5000x256_S256x64_S5000x64_1_0_0_1_n_n
    rfl rfl rfl rfl (fun _ _ => rfl) (fun _ _ => rfl) _ _ (ix2 p q)).trans ?_
  refine Finset.sum_congr rfl fun k _ => ?_
  have e1 : ∀ (l : FVec Ideal S5000x128 .bf16) (r : FVec Ideal S128x256 .bf16),
      matmul dot_S5000x128_S128x256_S5000x256_1_0_0_1_n_n none l r (constant (F := Ideal) S5000x256 .f32 0x00000000#32) (ix2 p k)
        = ∑ c : Fin 128, l (ix2 p c) * r (ix2 c k) := fun l r =>
    (Ideal.matmul_constant_zero_apply dot_S5000x128_S128x256_S5000x256_1_0_0_1_n_n none l r (ix2 p k)).trans
      (Contract2.sum_contr_eq_sum_fin (n0 := 5000) (n1 := 256) (K := 128) dot_S5000x128_S128x256_S5000x256_1_0_0_1_n_n
        rfl rfl rfl rfl (fun _ _ => rfl) (fun _ _ => rfl) l r (ix2 p k))
  show max (matmul dot_S5000x128_S128x256_S5000x256_1_0_0_1_n_n none _ _ (constant (F := Ideal) S5000x256 .f32 0x00000000#32) (ix2 p k)
        * broadcastTo S5000x256 _ broadcasts_S5000x1_S5000x256 (ix2 p k)
        + broadcastTo S5000x256 _ broadcasts_S1x256_S5000x256 (ix2 p k)) (Ideal.ofBits .f32 0x00000000#32)
      * broadcastTo S5000x256 _ broadcasts_S5000x1_S5000x256 (ix2 p k) * x4 (ix2 k q) = _
  rw [e1, broadcastTo_a1_ab_apply, broadcastTo_a1_ab_apply, broadcastTo_1b_ab_apply,
    slice2_axis1_apply 0 _ _ p (0 : Fin 1) (0 : Fin 2) rfl, slice2_axis1_apply 1 _ _ p (0 : Fin 1) (1 : Fin 2) rfl,
    shapeCast_self, shapeCast_self, shapeCast_self]
  rfl

/-- The second body's stored value at (p, q) is the output entry q of the block's row p. -/
theorem fin_apply (x0 : Vec Ideal S5000x64 .f32) (x1 : Vec Ideal S5000x1 .f32) (x2 : Vec Ideal S1x64 .f32)
    (p : Fin 5000) (q : Fin 64) :
    k1_pay1 (F := Ideal) x0 x1 x2 (ix2 p q) = outAt x0 x1 x2 p q := by
  unfold k1_pay1 outAt
  show shapeCast S5000x64 x0 shapeCasts_S5000x64_S5000x64 (ix2 p q)
      * broadcastTo S5000x64 _ broadcasts_S5000x1_S5000x64 (ix2 p q)
      + broadcastTo S5000x64 _ broadcasts_S1x64_S5000x64 (ix2 p q) = _
  rw [broadcastTo_a1_ab_apply, broadcastTo_1b_ab_apply, shapeCast_self, shapeCast_self, shapeCast_self]

end Cert.KernelIdeal.Bodies

end
-- ==== Proof.Blocks.lean ====
/-
  From blocks to arrays: what each kernel launch leaves in its output array.

  Each launch walks 20 grid points; point t reads rows 5000·t … 5000·t + 4999 of the row-indexed operands (the weight
  matrices and bias rows are read whole at every point) and writes back the same rows of the output. A stored entry
  depends on its own row only, so what point t writes back is block t of ONE whole-array function of the operand arrays
  as the launch finds them: the projected features GcnSpec.proj for the first launch, the output GcnSpec.out for the
  second. The blocks cover the 100000 rows (row r lies in block r / 5000), so the array ends holding that function.
-/
import proofs.«154429_j16252156248489_2_alg».proof.Proof.Gen.KernelIdeal.Frame
import proofs.«154429_j16252156248489_2_alg».proof.Proof.Bodies
import Idealize.ShloMosaic.Lib.Pipeline.Value

set_option maxRecDepth 16384

noncomputable section

open scoped BigOperators

namespace Cert.KernelIdeal.Blocks

open Cert.KernelIdeal Cert.KernelIdeal.Gen Cert.KernelIdeal.Bodies
open Idealize.ShloMosaic Idealize.ShloMosaic.TcCoe Idealize.SL.Sem
open Idealize.ShloMosaic.ValueIdx Idealize.ShloMosaic.GcnSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first launch -/

/-- A stored entry of the first body, from a block whose row p is row r of the arrays, is the projected feature of row r. -/
theorem mid_block (A : S100000x128.Idx → EReal) (NC : S100000x2.Idx → EReal) (W1 : S128x256.Idx → EReal)
    (B1 : S1x256.Idx → EReal) (W2 : S256x64.Idx → EReal)
    (x0 : Vec Ideal S5000x128 .f32) (x2 : Vec Ideal S128x256 .f32) (x1 : Vec Ideal S5000x2 .f32)
    (x3 : Vec Ideal S1x256 .f32) (x4 : Vec Ideal S256x64 .f32) (y : S5000x64.Idx) (r : Fin 100000) (q' : Fin 64)
    (h0 : ∀ cc : Fin 128, x0 (ix2 (y 0) cc) = A (ix2 r cc)) (h1 : ∀ e : Fin 2, x1 (ix2 (y 0) e) = NC (ix2 r e))
    (h2 : x2 = W1) (h3 : x3 = B1) (h4 : x4 = W2) (hq : y 1 = q') :
    k0_pay1 (F := Ideal) x0 x2 x1 x3 x4 y = projAt A NC W1 B1 W2 r q' := by
  obtain ⟨p, q, rfl⟩ : ∃ (p : Fin 5000) (q : Fin 64), y = ix2 p q := ⟨y 0, y 1, eq_ix2 y⟩
  subst h2 h3 h4
  have hq' : q = q' := hq
  subst hq'
  rw [mid_apply]
  exact projAt_congr _ _ _ _ _ _ _ p r q h0 h1

/-- The index maps over the grid: the row-indexed windows are at block (t, 0), the others at block (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t of the first launch writes back is block t of the projected features of the arrays as the launch finds them. -/
theorem flushed0 (c : Dev nD) (t : Fin cfg0.N) :
    (dat0 (F := Ideal) V c).flushed 5 t = ((cfg0.win 5).blk t).view.read (Elt Ideal)
      (proj (n := 100000) (V c main_v28) (V c main_v31) (V c main_arg3) (V c main_v32) (V c main_arg5)) := by
  show (cfg0.win 5).cut (grid0.coords t) ((dat0 (F := Ideal) V c).after 5 t) = _
  rw [after0_5]
  unfold out0_5
  rw [View.canon_unit_zero hz]
  simp only [View.ld_unit_zero (S := S5000x128) hz, View.ld_unit_zero (S := S5000x2) hz, View.ld_unit_zero (S := S128x256) hz,
    View.ld_unit_zero (S := S1x256) hz, View.ld_unit_zero (S := S256x64) hz]
  obtain ⟨e00, e01, e10, e11, e20, e21, e30, e31, e40, e41, e50, e51⟩ := idx0 t
  funext j
  show k0_pay1 (F := Ideal) (iblk0 V c 0 t) (iblk0 V c 2 t) (iblk0 V c 1 t) (iblk0 V c 3 t) (iblk0 V c 4 t) j
    = projAt (V c main_v28) (V c main_v31) (V c main_arg3) (V c main_v32) (V c main_arg5)
        ((((cfg0.win 5).blk t).view.emb j) 0) ((((cfg0.win 5).blk t).view.emb j) 1)
  have hj0 : (j 0).val < 5000 := (j 0).isLt
  have hj1 : (j 1).val < 64 := (j 1).isLt
  refine mid_block _ _ _ _ _ _ _ _ _ _ j _ _ (fun cc => ?_) (fun e => ?_) ?_ ?_ ?_ ?_
  · show V c main_v28 (((cfg0.win 0).blk t).view.emb (ix2 (j 0) cc)) = V c main_v28 (ix2 ((((cfg0.win 5).blk t).view.emb j) 0) cc)
    refine congrArg (V c main_v28) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * cc.val = cc.val; omega
  · show V c main_v31 (((cfg0.win 1).blk t).view.emb (ix2 (j 0) e)) = V c main_v31 (ix2 ((((cfg0.win 5).blk t).view.emb j) 0) e)
    refine congrArg (V c main_v31) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 2 + 1 * e.val = e.val; omega
  · funext x
    show V c main_arg3 (((cfg0.win 2).blk t).view.emb x) = V c main_arg3 x
    refine congrArg (V c main_arg3) (funext fun a => Fin.ext ?_)
    match a with
    | ⟨0, _⟩ => show win0_2.index t (0 : Fin 2) * 128 + 1 * (x 0).val = (x 0).val; omega
    | ⟨1, _⟩ => show win0_2.index t (1 : Fin 2) * 256 + 1 * (x 1).val = (x 1).val; omega
  · funext x
    show V c main_v32 (((cfg0.win 3).blk t).view.emb x) = V c main_v32 x
    refine congrArg (V c main_v32) (funext fun a => Fin.ext ?_)
    match a with
    | ⟨0, _⟩ => show win0_3.index t (0 : Fin 2) * 1 + 1 * (x 0).val = (x 0).val; omega
    | ⟨1, _⟩ => show win0_3.index t (1 : Fin 2) * 256 + 1 * (x 1).val = (x 1).val; omega
  · funext x
    show V c main_arg5 (((cfg0.win 4).blk t).view.emb x) = V c main_arg5 x
    refine congrArg (V c main_arg5) (funext fun a => Fin.ext ?_)
    match a with
    | ⟨0, _⟩ => show win0_4.index t (0 : Fin 2) * 256 + 1 * (x 0).val = (x 0).val; omega
    | ⟨1, _⟩ => show win0_4.index t (1 : Fin 2) * 64 + 1 * (x 1).val = (x 1).val; omega
  · refine Fin.ext ?_
    show (j 1).val = win0_5.index t (1 : Fin 2) * 64 + 1 * (j 1).val
    omega

/-- An index of the output array is in point t's block iff each coordinate is in the block's range on its axis. -/
theorem mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v33).slice (win0_5.rect t)).set ↔ _
  rw [View.set_slice_whole, Rect.mem_set_unit]
  exact Iff.rfl

/-- Row r of the output lies in the block of point r / 5000. -/
theorem cover0 (i : S100000x64.Idx) : ∃ t : Fin cfg0.N, (cfg0.win 5).flush t = true ∧ i ∈ ((cfg0.win 5).blk t).view.set := by
  have hN : cfg0.N = 20 := N_0
  have hi0 : (i 0).val < 100000 := (i 0).isLt
  have hi1 : (i 1).val < 64 := (i 1).isLt
  refine ⟨⟨(i 0).val / 5000, by omega⟩, flush0_5 _, ?_⟩
  rw [mem_blk0]
  obtain ⟨e00, e01, e10, e11, e20, e21, e30, e31, e40, e41, e50, e51⟩ := idx0 ⟨(i 0).val / 5000, by omega⟩
  intro a
  match a with
  | ⟨0, _⟩ =>
    show win0_5.index ⟨(i 0).val / 5000, _⟩ (0 : Fin 2) * 5000 ≤ (i 0).val ∧ (i 0).val < win0_5.index ⟨(i 0).val / 5000, _⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, _⟩ (1 : Fin 2) * 64 ≤ (i 1).val ∧ (i 1).val < win0_5.index ⟨(i 0).val / 5000, _⟩ (1 : Fin 2) * 64 + 64
    rw [e51]; omega

/-- The first launch's output array ends holding the projected features of the arrays as the launch finds them. -/
theorem final0 (c : Dev nD) :
    (dat0 (F := Ideal) V c).arrAt 5 cfg0.N
      = proj (n := 100000) (V c main_v28) (V c main_v31) (V c main_arg3) (V c main_v32) (V c main_arg5) :=
  (dat0 (F := Ideal) V c).arrAt_eq_of_cover 5 _ (fun t _ => flushed0 V c t) cover0

/-! ## The second launch -/

/-- A stored entry of the second body, from a block whose row p is row r of the arrays, is the output entry of row r. -/
theorem fin_block (G : S100000x64.Idx → EReal) (D : S100000x1.Idx → EReal) (B : S1x64.Idx → EReal)
    (x0 : Vec Ideal S5000x64 .f32) (x1 : Vec Ideal S5000x1 .f32) (x2 : Vec Ideal S1x64 .f32)
    (y : S5000x64.Idx) (r : Fin 100000) (q' : Fin 64)
    (h0 : x0 (ix2 (y 0) (y 1)) = G (ix2 r q')) (h1 : x1 (ix2 (y 0) (0 : Fin 1)) = D (ix2 r (0 : Fin 1)))
    (h2 : x2 = B) (hq : y 1 = q') :
    k1_pay1 (F := Ideal) x0 x1 x2 y = outAt G D B r q' := by
  obtain ⟨p, q, rfl⟩ : ∃ (p : Fin 5000) (q : Fin 64), y = ix2 p q := ⟨y 0, y 1, eq_ix2 y⟩
  subst h2
  have hq' : q = q' := hq
  subst hq'
  rw [fin_apply]
  unfold outAt
  rw [show x0 (ix2 p q) = G (ix2 r q) from h0, show x1 (ix2 p (0 : Fin 1)) = D (ix2 r (0 : Fin 1)) from h1]

/-- The index maps over the grid: the row-indexed windows are at block (t, 0), the bias row at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t of the second launch writes back is block t of the output function of the arrays as the launch finds them. -/
theorem flushed1 (c : Dev nD) (t : Fin cfg1.N) :
    (dat1 (F := Ideal) V c).flushed 3 t = ((cfg1.win 3).blk t).view.read (Elt Ideal)
      (out (n := 100000) (V c main_v44) (V c main_v45) (V c main_v46)) := by
  show (cfg1.win 3).cut (grid1.coords t) ((dat1 (F := Ideal) V c).after 3 t) = _
  rw [after1_3]
  unfold out1_3
  rw [View.canon_unit_zero hz]
  simp only [View.ld_unit_zero (S := S5000x64) hz, View.ld_unit_zero (S := S5000x1) hz, View.ld_unit_zero (S := S1x64) hz]
  obtain ⟨e00, e01, e10, e11, e20, e21, e30, e31⟩ := idx1 t
  funext j
  show k1_pay1 (F := Ideal) (iblk1 V c 0 t) (iblk1 V c 1 t) (iblk1 V c 2 t) j
    = outAt (V c main_v44) (V c main_v45) (V c main_v46)
        ((((cfg1.win 3).blk t).view.emb j) 0) ((((cfg1.win 3).blk t).view.emb j) 1)
  have hj0 : (j 0).val < 5000 := (j 0).isLt
  have hj1 : (j 1).val < 64 := (j 1).isLt
  refine fin_block _ _ _ _ _ _ j _ _ ?_ ?_ ?_ ?_
  · show V c main_v44 (((cfg1.win 0).blk t).view.emb (ix2 (j 0) (j 1)))
      = V c main_v44 (ix2 ((((cfg1.win 3).blk t).view.emb j) 0) ((((cfg1.win 3).blk t).view.emb j) 1))
    refine congrArg (V c main_v44) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * (j 1).val = win1_3.index t (1 : Fin 2) * 64 + 1 * (j 1).val; omega
  · show V c main_v45 (((cfg1.win 1).blk t).view.emb (ix2 (j 0) (0 : Fin 1)))
      = V c main_v45 (ix2 ((((cfg1.win 3).blk t).view.emb j) 0) (0 : Fin 1))
    refine congrArg (V c main_v45) (funext fun a => Fin.ext ?_)
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega
  · funext x
    show V c main_v46 (((cfg1.win 2).blk t).view.emb x) = V c main_v46 x
    refine congrArg (V c main_v46) (funext fun a => Fin.ext ?_)
    match a with
    | ⟨0, _⟩ => show win1_2.index t (0 : Fin 2) * 1 + 1 * (x 0).val = (x 0).val; omega
    | ⟨1, _⟩ => show win1_2.index t (1 : Fin 2) * 64 + 1 * (x 1).val = (x 1).val; omega
  · refine Fin.ext ?_
    show (j 1).val = win1_3.index t (1 : Fin 2) * 64 + 1 * (j 1).val
    omega

/-- An index of the result array is in point t's block iff each coordinate is in the block's range on its axis. -/
theorem mem_blk1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v47).slice (win1_3.rect t)).set ↔ _
  rw [View.set_slice_whole, Rect.mem_set_unit]
  exact Iff.rfl

/-- Row r of the result lies in the block of point r / 5000. -/
theorem cover1 (i : S100000x64.Idx) : ∃ t : Fin cfg1.N, (cfg1.win 3).flush t = true ∧ i ∈ ((cfg1.win 3).blk t).view.set := by
  have hN : cfg1.N = 20 := N_1
  have hi0 : (i 0).val < 100000 := (i 0).isLt
  have hi1 : (i 1).val < 64 := (i 1).isLt
  refine ⟨⟨(i 0).val / 5000, by omega⟩, flush1_3 _, ?_⟩
  rw [mem_blk1]
  obtain ⟨e00, e01, e10, e11, e20, e21, e30, e31⟩ := idx1 ⟨(i 0).val / 5000, by omega⟩
  intro a
  match a with
  | ⟨0, _⟩ =>
    show win1_3.index ⟨(i 0).val / 5000, _⟩ (0 : Fin 2) * 5000 ≤ (i 0).val ∧ (i 0).val < win1_3.index ⟨(i 0).val / 5000, _⟩ (0 : Fin 2) * 5000 + 5000
    rw [e30]; show (i 0).val / 5000 * 5000 ≤ (i 0).val ∧ (i 0).val < (i 0).val / 5000 * 5000 + 5000; omega
  | ⟨1, _⟩ =>
    show win1_3.index ⟨(i 0).val / 5000, _⟩ (1 : Fin 2) * 64 ≤ (i 1).val ∧ (i 1).val < win1_3.index ⟨(i 0).val / 5000, _⟩ (1 : Fin 2) * 64 + 64
    rw [e31]; omega

/-- The second launch's result array ends holding the output function of the arrays as the launch finds them. -/
theorem final1 (c : Dev nD) :
    (dat1 (F := Ideal) V c).arrAt 3 cfg1.N = out (n := 100000) (V c main_v44) (V c main_v45) (V c main_v46) :=
  (dat1 (F := Ideal) V c).arrAt_eq_of_cover 3 _ (fun t _ => flushed1 V c t) cover1

end Cert.KernelIdeal.Blocks

end
-- ==== Proof.KValue.lean ====
/-
  The idealized kernel program's result as one function of its arguments.

  The result array is what the second launch leaves: GcnSpec.out of the second neighbourhood sum, the incoming-degree
  factor and the second bias. The second neighbourhood sum runs over what the first launch left: GcnSpec.proj of the first
  neighbourhood sum, the two degree factors, the weights and the first bias. Every operand is a host function of the
  argument arrays.
-/
import proofs.«154429_j16252156248489_2_alg».proof.Proof.HostSide
import proofs.«154429_j16252156248489_2_alg».proof.Proof.Blocks

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.GcnSpec

variable (m : (ℓ : Loc nD τ sig) → Buf (Elt Ideal) ℓ) (ρ : Dev nD → PrngReg)

/-- The two-layer graph convolution as the kernel program computes it, on the extended reals. -/
def conv (h : (⟨S100000x128, .f32⟩ : BufTy).Contents (Elt Ideal)) (src dst : (⟨S1600000, .i32⟩ : BufTy).Contents (Elt Ideal))
    (w1 : (⟨S128x256, .f32⟩ : BufTy).Contents (Elt Ideal)) (b1 : (⟨S256, .f32⟩ : BufTy).Contents (Elt Ideal))
    (w2 : (⟨S256x64, .f32⟩ : BufTy).Contents (Elt Ideal)) (b2 : (⟨S64, .f32⟩ : BufTy).Contents (Elt Ideal)) :
    (⟨S100000x64, .f32⟩ : BufTy).Contents (Elt Ideal) :=
  out (n := 100000)
    (agg2 (F := Ideal) (proj (n := 100000) (agg1 (F := Ideal) h src dst) (normCat (F := Ideal) src dst) w1
      (shapeCast S1x256 b1 shapeCasts_S256_S1x256) w2) src dst)
    (shapeCast S100000x1 (degNorm (F := Ideal) dst) shapeCasts_S100000_S100000x1)
    (shapeCast S1x64 b2 shapeCasts_S64_S1x64)

/-- The last boundary's contents at the result buffer are the convolution of the launch contents of the arguments. -/
theorem result_value (c : Dev nD) : W8 m ρ c (Proc.devRef .tc main_v47)
    = conv (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  have e8 : W8 m ρ c (Proc.devRef .tc main_v47) = (dat1 (F := Ideal) (V7 m ρ) c).arrAt 3 cfg1.N := W8_arr m ρ c 3
  have e6 : W6 m ρ c (Proc.devRef .tc main_v33) = (dat0 (F := Ideal) (V5 m ρ) c).arrAt 5 cfg0.N := W6_arr m ρ c 5
  have a3 : V5 m ρ c main_arg3 = m ((c : Thread nD τ).loc main_arg3) := (entry_arg m ρ c).2.2.1
  have a5 : V5 m ρ c main_arg5 = m ((c : Thread nD τ).loc main_arg5) := (entry_arg m ρ c).2.2.2.1
  rw [e8, Blocks.final1 (V7 m ρ) c, mid_agg2, mid_normIn, mid_b2, e6, Blocks.final0 (V5 m ρ) c, entry_agg1, entry_normCat,
    entry_b1, a3, a5]
  rfl

end Cert.KernelIdeal.HostSide

end
-- ==== Proof.LibJoinCols.lean ====
/-
  Matrices joined along their columns, read at an entry.

  When two or three matrices with the same number of rows are laid side by side, the entry (e, q) of the result is
  the entry of the piece whose column range holds q: for widths w1, w2, w3 the first piece at column q when
  q < w1, the second at q − w1 when w1 ≤ q < w1 + w2, the third at q − w1 − w2 beyond. The result's width is
  kept as a number W of its own, so that a printed shape whose width is written as one literal is met directly.
-/
import Idealize.ShloMosaic.Lib.ValueIdx
import Idealize.ShloMosaic.Lib.Pipeline.Value

noncomputable section

namespace Idealize.ShloMosaic.JoinCols

open Idealize.ShloMosaic Idealize.ShloMosaic.ValueIdx

variable {α : Type}

/-- Two matrices side by side, at a column of the first. -/
theorem pair_left {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w1) (q : Fin W) (hq : q.val = a.val) :
    concatenate (⟨2, ![n, W]⟩ : Shape) 1 [⟨(⟨2, ![n, w1]⟩ : Shape), A⟩, ⟨(⟨2, ![n, w2]⟩ : Shape), B⟩] h (ix2 e q) = A (ix2 e a) :=
  concatenate_pair_apply_left 1 A B h (ix2 e q) rfl (ix2 e a)
    (fun b => match b with | ⟨0, _⟩ => rfl | ⟨1, _⟩ => hq.symm)

/-- Two matrices side by side, at a column of the second. -/
theorem pair_right {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w2) (q : Fin W) (hq : q.val = w1 + a.val) :
    concatenate (⟨2, ![n, W]⟩ : Shape) 1 [⟨(⟨2, ![n, w1]⟩ : Shape), A⟩, ⟨(⟨2, ![n, w2]⟩ : Shape), B⟩] h (ix2 e q) = B (ix2 e a) :=
  concatenate_pair_apply_right 1 A B h (ix2 e q) rfl rfl (ix2 e a)
    (fun b hb => match b with | ⟨0, _⟩ => rfl | ⟨1, _⟩ => absurd rfl hb)
    (by show a.val + w1 = q.val; omega)

/-- Three matrices side by side, at a column of the first. -/
theorem triple_left {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w1) (q : Fin W) (hq : q.val = a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = A (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 0 (by simp) _ A rfl rfl 0 rfl (ix2 e a)
    (fun b hb => match b with | ⟨0, _⟩ => rfl | ⟨1, _⟩ => absurd rfl hb)
    (by show 0 + a.val = q.val; omega)

/-- Three matrices side by side, at a column of the second. -/
theorem triple_mid {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w2) (q : Fin W) (hq : q.val = w1 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = B (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 1 (by simp) _ B rfl rfl w1 (by simp) (ix2 e a)
    (fun b hb => match b with | ⟨0, _⟩ => rfl | ⟨1, _⟩ => absurd rfl hb)
    (by show w1 + a.val = q.val; omega)

/-- Three matrices side by side, at a column of the third. -/
theorem triple_right {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w3) (q : Fin W) (hq : q.val = w1 + w2 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = C (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 2 (by simp) _ C rfl rfl (w1 + w2) (by simp) (ix2 e a)
    (fun b hb => match b with | ⟨0, _⟩ => rfl | ⟨1, _⟩ => absurd rfl hb)
    (by show w1 + w2 + a.val = q.val; omega)

end Idealize.ShloMosaic.JoinCols

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.Stages.lean ====
/-
  The dense stages of the graph convolution, in a host program's spelling.

  A host program computes the projected features of GcnSpec.proj as two dot_generals with broadcasts between them: the
  aggregated features times w1, each row scaled by its incoming-degree factor (a vector spread along the rows), plus the
  bias (a vector spread down the columns), the rectifier against the zero constant, each row scaled by its
  outgoing-degree factor, times w2. The fused form takes the two degree factors as the two columns of one [n, 2] array
  and the bias as a [1, 256] row; both are the same sums at every entry. Likewise the output stage: the aggregated
  projections times the incoming-degree factor plus the second bias, with the factor as an [n, 1] column and the bias
  as a [1, 64] row on one side and as broadcast vectors on the other. No law beyond reading each layout operation at an
  entry is needed: the two spellings are the same expression, term by term.
-/
import proofs.«154429_j16252156248489_2_alg».proof.Proof.GcnSpec
import proofs.«154429_j16252156248489_2_alg».proof.Proof.LibContract
import proofs.«154429_j16252156248489_2_alg».proof.Proof.LibColumn
import proofs.«154429_j16252156248489_2_alg».proof.Proof.LibJoinCols
import proofs.«154429_j16252156248489_2_alg».proof.Proof.LibKeepdims
import Idealize.ShloMosaic.Lib.ValueLayout
import Idealize.ShloMosaic.Lib.Pipeline.Value
import Idealize.ShloMosaic.PureOps.Ideal.Laws

noncomputable section

open scoped BigOperators

namespace Idealize.ShloMosaic.GcnSpec

open Idealize.ShloMosaic Idealize.ShloMosaic.ValueIdx

/-- The projected features, with the degree factors as the columns of one array and the bias as a row, are the host's
    two products with their broadcasts. -/
theorem proj_eq_host {n : ℕ} (a : (⟨2, ![n, 128]⟩ : Shape).Idx → EReal)
    (nin nout : (⟨1, ![n]⟩ : Shape).Idx → EReal) (w1 : (⟨2, ![128, 256]⟩ : Shape).Idx → EReal)
    (b1 : (⟨1, ![256]⟩ : Shape).Idx → EReal) (w2 : (⟨2, ![256, 64]⟩ : Shape).Idx → EReal)
    (D1 : DotDims (⟨2, ![n, 128]⟩ : Shape) (⟨2, ![128, 256]⟩ : Shape) (⟨2, ![n, 256]⟩ : Shape))
    (hr1 : D1.contr.rank = 1) (hs1 : D1.contr.size ⟨0, by omega⟩ = 128)
    (hlc1 : D1.lhsContracting = [1]) (hrc1 : D1.rhsContracting = [0])
    (hl1 : ∀ j q, (D1.lhsIdx j q 0).val = (j 0).val) (hrr1 : ∀ j q, (D1.rhsIdx j q 1).val = (j 1).val)
    (D2 : DotDims (⟨2, ![n, 256]⟩ : Shape) (⟨2, ![256, 64]⟩ : Shape) (⟨2, ![n, 64]⟩ : Shape))
    (hr2 : D2.contr.rank = 1) (hs2 : D2.contr.size ⟨0, by omega⟩ = 256)
    (hlc2 : D2.lhsContracting = [1]) (hrc2 : D2.rhsContracting = [0])
    (hl2 : ∀ j q, (D2.lhsIdx j q 0).val = (j 0).val) (hrr2 : ∀ j q, (D2.rhsIdx j q 1).val = (j 1).val)
    (hcat : Shape.Concatenates [(⟨2, ![n, 1]⟩ : Shape), (⟨2, ![n, 1]⟩ : Shape)] (⟨2, ![n, 2]⟩ : Shape) 1)
    (hcol hcol' : (⟨1, ![n]⟩ : Shape).BroadcastsInDim ⟨2, ![n, 1]⟩ ![0])
    (hrow : (⟨1, ![256]⟩ : Shape).ShapeCasts ⟨2, ![1, 256]⟩)
    (h1 h1' : (⟨1, ![n]⟩ : Shape).BroadcastsInDim ⟨2, ![n, 1]⟩ ![0])
    (h2 h2' : (⟨2, ![n, 1]⟩ : Shape).BroadcastsInDim ⟨2, ![n, 256]⟩ ![0, 1])
    (h3 : (⟨1, ![256]⟩ : Shape).BroadcastsInDim ⟨2, ![1, 256]⟩ ![1])
    (h4 : (⟨2, ![1, 256]⟩ : Shape).BroadcastsInDim ⟨2, ![n, 256]⟩ ![0, 1])
    (h0 : (⟨0, ![]⟩ : Shape).BroadcastsInDim ⟨2, ![n, 256]⟩ ![]) :
    proj a (concatenate (⟨2, ![n, 2]⟩ : Shape) 1
        [⟨(⟨2, ![n, 1]⟩ : Shape), broadcastInDim (⟨2, ![n, 1]⟩ : Shape) ![0] hcol nin⟩,
         ⟨(⟨2, ![n, 1]⟩ : Shape), broadcastInDim (⟨2, ![n, 1]⟩ : Shape) ![0] hcol' nout⟩] hcat)
      w1 (shapeCast (⟨2, ![1, 256]⟩ : Shape) b1 hrow) w2
    = Host.dotGeneral (F := Ideal) (φ₁ := .f32) (φ₂ := .f32) D2 none
        (mulf (φ := .f32)
          (maximumf (φ := .f32)
            (addf (φ := .f32)
              (mulf (φ := .f32) (Host.dotGeneral (F := Ideal) (φ₁ := .f32) (φ₂ := .f32) D1 none a w1)
                (broadcastInDim (⟨2, ![n, 256]⟩ : Shape) ![0, 1] h2 (broadcastInDim (⟨2, ![n, 1]⟩ : Shape) ![0] h1 nin)))
              (broadcastInDim (⟨2, ![n, 256]⟩ : Shape) ![0, 1] h4 (broadcastInDim (⟨2, ![1, 256]⟩ : Shape) ![1] h3 b1)))
            (broadcastInDim (⟨2, ![n, 256]⟩ : Shape) ![] h0 (constant (F := Ideal) (⟨0, ![]⟩ : Shape) .f32 0x00000000#32)))
          (broadcastInDim (⟨2, ![n, 256]⟩ : Shape) ![0, 1] h2' (broadcastInDim (⟨2, ![n, 1]⟩ : Shape) ![0] h1' nout)))
        w2 := by
  funext i
  obtain ⟨r, j, rfl⟩ : ∃ (r : Fin n) (j : Fin 64), i = ix2 r j := ⟨i 0, i 1, eq_ix2 i⟩
  refine Eq.trans ?_ (Ideal.dotGeneral_apply D2 none .single _ w2 (ix2 r j)).symm
  refine Eq.trans ?_ (Contract2.sum_contr_eq_sum_fin D2 hr2 hs2 hlc2 hrc2 hl2 hrr2 _ w2 (ix2 r j)).symm
  show projAt _ _ w1 _ w2 r j = ∑ k : Fin 256, (_ : (⟨2, ![n, 256]⟩ : Shape).Idx → EReal) (ix2 r k) * w2 (ix2 k j)
  unfold projAt
  refine Finset.sum_congr rfl fun k _ => ?_
  have e1 : ∀ r' : Fin n, Host.dotGeneral (F := Ideal) (φ₁ := .f32) (φ₂ := .f32) D1 none a w1 (ix2 r' k)
      = ∑ c : Fin 128, a (ix2 r' c) * w1 (ix2 c k) := fun r' =>
    (Ideal.dotGeneral_apply D1 none .single a w1 (ix2 r' k)).trans
      (Contract2.sum_contr_eq_sum_fin D1 hr1 hs1 hlc1 hrc1 hl1 hrr1 a w1 (ix2 r' k))
  rw [JoinCols.pair_left _ _ hcat r (0 : Fin 1) (0 : Fin 2) rfl, JoinCols.pair_right _ _ hcat r (0 : Fin 1) (1 : Fin 2) rfl,
    Keepdims.column_apply, Keepdims.column_apply, shapeCast_a_1a_apply]
  rw [mulf_apply, maximumf_apply, addf_apply, mulf_apply, e1, Keepdims.rows_apply, Keepdims.rows_apply, Keepdims.cols_apply,
    broadcastInDim_apply _ h0 _ _ (fun x => x.elim0) (fun x => x.elim0)]
  rfl

/-- The output stage, with the degree factor as a column and the bias as a row, is the host's product and sum with
    their broadcasts. -/
theorem out_eq_host {n : ℕ} (g : (⟨2, ![n, 64]⟩ : Shape).Idx → EReal) (nin : (⟨1, ![n]⟩ : Shape).Idx → EReal)
    (b2 : (⟨1, ![64]⟩ : Shape).Idx → EReal)
    (hc1 : (⟨1, ![n]⟩ : Shape).ShapeCasts ⟨2, ![n, 1]⟩) (hc2 : (⟨1, ![64]⟩ : Shape).ShapeCasts ⟨2, ![1, 64]⟩)
    (h1 : (⟨1, ![n]⟩ : Shape).BroadcastsInDim ⟨2, ![n, 1]⟩ ![0])
    (h2 : (⟨2, ![n, 1]⟩ : Shape).BroadcastsInDim ⟨2, ![n, 64]⟩ ![0, 1])
    (h3 : (⟨1, ![64]⟩ : Shape).BroadcastsInDim ⟨2, ![1, 64]⟩ ![1])
    (h4 : (⟨2, ![1, 64]⟩ : Shape).BroadcastsInDim ⟨2, ![n, 64]⟩ ![0, 1]) :
    out g (shapeCast (⟨2, ![n, 1]⟩ : Shape) nin hc1) (shapeCast (⟨2, ![1, 64]⟩ : Shape) b2 hc2)
    = addf (F := Ideal) (φ := .f32)
        (mulf (F := Ideal) (φ := .f32) g
          (broadcastInDim (⟨2, ![n, 64]⟩ : Shape) ![0, 1] h2 (broadcastInDim (⟨2, ![n, 1]⟩ : Shape) ![0] h1 nin)))
        (broadcastInDim (⟨2, ![n, 64]⟩ : Shape) ![0, 1] h4 (broadcastInDim (⟨2, ![1, 64]⟩ : Shape) ![1] h3 b2)) := by
  funext i
  obtain ⟨r, j, rfl⟩ : ∃ (r : Fin n) (j : Fin 64), i = ix2 r j := ⟨i 0, i 1, eq_ix2 i⟩
  rw [addf_apply, mulf_apply]
  show outAt g _ _ r j = _
  unfold outAt
  rw [Keepdims.rows_apply, Keepdims.cols_apply, shapeCast_a_a1_apply, shapeCast_a_1a_apply]

end Idealize.ShloMosaic.GcnSpec

end
-- ==== Proof.RefSide.lean ====
/-
  The reference program's result, stage by stage.

  The reference computes the same two-layer graph convolution wholly on the host. Its dense stages between the two
  neighbourhood sums — the aggregated features times the first weights, scaled, biased, rectified, scaled again, times the
  second weights — are the projected features of GcnSpec.proj, with the two degree factors read as the columns of one
  array and the bias as a row; its last stage is GcnSpec.out of the second neighbourhood sum. The neighbourhood sums and
  the degree factors themselves stay as the host operations they are.
-/
import proofs.«154429_j16252156248489_2_alg».proof.Proof.Gen.ReferenceIdeal.Read
import proofs.«154429_j16252156248489_2_alg».proof.Proof.Stages

set_option maxRecDepth 16384

noncomputable section

namespace Cert.ReferenceIdeal.RefSide

open Cert.ReferenceIdeal Cert.ReferenceIdeal.Gen Cert.ReferenceIdeal.Read
open Idealize.ShloMosaic Idealize.ShloMosaic.ValueIdx Idealize.ShloMosaic.GcnSpec

/-- The reference's projected features (its second dot_general) are GcnSpec.proj of its first neighbourhood sum, its two
    degree factors and the weights. -/
theorem proj_stage (x0 : (⟨S100000x128, .f32⟩ : BufTy).Contents (Elt Ideal)) (x1 x2 : (⟨S1600000, .i32⟩ : BufTy).Contents (Elt Ideal))
    (x3 : (⟨S128x256, .f32⟩ : BufTy).Contents (Elt Ideal)) (x4 : (⟨S256, .f32⟩ : BufTy).Contents (Elt Ideal))
    (x5 : (⟨S256x64, .f32⟩ : BufTy).Contents (Elt Ideal))
    (hcat : Shape.Concatenates [(⟨2, ![100000, 1]⟩ : Shape), (⟨2, ![100000, 1]⟩ : Shape)] (⟨2, ![100000, 2]⟩ : Shape) 1)
    (hrow : (⟨1, ![256]⟩ : Shape).ShapeCasts ⟨2, ![1, 256]⟩) :
    val_main_v52 (F := Ideal) x0 x1 x2 x3 x4 x5
      = proj (n := 100000) (val_main_v26 (F := Ideal) x0 x1 x2)
          (concatenate (⟨2, ![100000, 2]⟩ : Shape) 1
            [⟨(⟨2, ![100000, 1]⟩ : Shape), broadcastInDim (⟨2, ![100000, 1]⟩ : Shape) ![0] bcast_S100000_S100000x1_0 (val_main_v13 (F := Ideal) x2)⟩,
             ⟨(⟨2, ![100000, 1]⟩ : Shape), broadcastInDim (⟨2, ![100000, 1]⟩ : Shape) ![0] bcast_S100000_S100000x1_0 (val_main_v41 (F := Ideal) x1)⟩] hcat)
          x3 (shapeCast (⟨2, ![1, 256]⟩ : Shape) x4 hrow) x5 :=
  ((proj_eq_host (n := 100000) (val_main_v26 (F := Ideal) x0 x1 x2) (val_main_v13 (F := Ideal) x2) (val_main_v41 (F := Ideal) x1) x3 x4 x5
      dot_S100000x128_S128x256_S100000x256_1_0_0_1_n_n rfl rfl rfl rfl (fun _ _ => rfl) (fun _ _ => rfl)
      dot_S100000x256_S256x64_S100000x64_1_0_0_1_n_n rfl rfl rfl rfl (fun _ _ => rfl) (fun _ _ => rfl)
      hcat bcast_S100000_S100000x1_0 bcast_S100000_S100000x1_0 hrow
      bcast_S100000_S100000x1_0 bcast_S100000_S100000x1_0 bcast_S100000x1_S100000x256_0_1 bcast_S100000x1_S100000x256_0_1
      bcast_S256_S1x256_1 bcast_S1x256_S100000x256_0_1 bcast_S_S100000x256).trans rfl).symm

/-- The reference's second neighbourhood sum, as a function of its projected features. -/
theorem agg2_stage (x0 : (⟨S100000x128, .f32⟩ : BufTy).Contents (Elt Ideal)) (x1 x2 : (⟨S1600000, .i32⟩ : BufTy).Contents (Elt Ideal))
    (x3 : (⟨S128x256, .f32⟩ : BufTy).Contents (Elt Ideal)) (x4 : (⟨S256, .f32⟩ : BufTy).Contents (Elt Ideal))
    (x5 : (⟨S256x64, .f32⟩ : BufTy).Contents (Elt Ideal)) :
    val_main_v62 (F := Ideal) x0 x1 x2 x3 x4 x5
      = Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 x2)
          (Host.gather gather_S100000x64_S1600000x1_S1600000x64_1_0_n_n_0_1_164 (val_main_v52 (F := Ideal) x0 x1 x2 x3 x4 x5)
            (broadcastInDim S1600000x1 ![0] bcast_S1600000_S1600000x1_0
              (select (cmpi .slt x1 (broadcastInDim S1600000 ![] bcast_S_S1600000 (constantI S_ 32 0#32)))
                (addi x1 (broadcastInDim S1600000 ![] bcast_S_S1600000 (constantI S_ 32 100000#32))) x1))) := rfl

/-- The reference's result is GcnSpec.out of its second neighbourhood sum, its incoming-degree factor as a column and
    the second bias as a row. -/
theorem out_stage (x0 : (⟨S100000x128, .f32⟩ : BufTy).Contents (Elt Ideal)) (x1 x2 : (⟨S1600000, .i32⟩ : BufTy).Contents (Elt Ideal))
    (x3 : (⟨S128x256, .f32⟩ : BufTy).Contents (Elt Ideal)) (x4 : (⟨S256, .f32⟩ : BufTy).Contents (Elt Ideal))
    (x5 : (⟨S256x64, .f32⟩ : BufTy).Contents (Elt Ideal)) (x6 : (⟨S64, .f32⟩ : BufTy).Contents (Elt Ideal))
    (hc1 : (⟨1, ![100000]⟩ : Shape).ShapeCasts ⟨2, ![100000, 1]⟩) (hc2 : (⟨1, ![64]⟩ : Shape).ShapeCasts ⟨2, ![1, 64]⟩) :
    val_main_v68 (F := Ideal) x0 x1 x2 x3 x4 x5 x6
      = out (n := 100000) (val_main_v62 (F := Ideal) x0 x1 x2 x3 x4 x5)
          (shapeCast (⟨2, ![100000, 1]⟩ : Shape) (val_main_v48 (F := Ideal) x2) hc1)
          (shapeCast (⟨2, ![1, 64]⟩ : Shape) x6 hc2) :=
  ((out_eq_host (n := 100000) (val_main_v62 (F := Ideal) x0 x1 x2 x3 x4 x5) (val_main_v48 (F := Ideal) x2) x6 hc1 hc2
      bcast_S100000_S100000x1_0 bcast_S100000x1_S100000x64_0_1 bcast_S64_S1x64_1 bcast_S1x64_S100000x64_0_1).trans rfl).symm

end Cert.ReferenceIdeal.RefSide

end
-- ==== Proof.Bridge.lean ====
/-
  The kernel program's convolution is the reference's result.

  Both programs compute the degree factors and the two neighbourhood sums with the same host operations; a change of
  float format, which the kernel program interposes around its gathers, is the identity on extended reals. Between and
  after the neighbourhood sums the reference's host stages are GcnSpec.proj and GcnSpec.out of the same operands
  (RefSide), which is what the kernel's launches leave (KValue). So the two results are one function of the arguments.
-/
import proofs.«154429_j16252156248489_2_alg».proof.Proof.KValue
import proofs.«154429_j16252156248489_2_alg».proof.Proof.RefSide

set_option maxRecDepth 16384

noncomputable section

namespace Cert.Bridge

open Idealize.ShloMosaic Idealize.ShloMosaic.GcnSpec

/-- The reference's degree factors are the kernel program's, each time it computes them. -/
theorem degNorm_13 (x : (⟨Cert.KernelIdeal.S1600000, .i32⟩ : BufTy).Contents (Elt Ideal)) :
    Cert.ReferenceIdeal.Read.val_main_v13 (F := Ideal) x = Cert.KernelIdeal.HostSide.degNorm (F := Ideal) x := rfl
theorem degNorm_41 (x : (⟨Cert.KernelIdeal.S1600000, .i32⟩ : BufTy).Contents (Elt Ideal)) :
    Cert.ReferenceIdeal.Read.val_main_v41 (F := Ideal) x = Cert.KernelIdeal.HostSide.degNorm (F := Ideal) x := rfl
theorem degNorm_48 (x : (⟨Cert.KernelIdeal.S1600000, .i32⟩ : BufTy).Contents (Elt Ideal)) :
    Cert.ReferenceIdeal.Read.val_main_v48 (F := Ideal) x = Cert.KernelIdeal.HostSide.degNorm (F := Ideal) x := rfl

/-- The reference's first neighbourhood sum is the kernel program's: the format changes around the gather are the identity. -/
theorem agg1_eq (h : (⟨Cert.KernelIdeal.S100000x128, .f32⟩ : BufTy).Contents (Elt Ideal))
    (s d : (⟨Cert.KernelIdeal.S1600000, .i32⟩ : BufTy).Contents (Elt Ideal)) :
    Cert.ReferenceIdeal.Read.val_main_v26 (F := Ideal) h s d = Cert.KernelIdeal.HostSide.agg1 (F := Ideal) h s d := rfl

/-- The reference's second neighbourhood sum is the kernel program's, of the reference's projected features. -/
theorem agg2_eq (h : (⟨Cert.KernelIdeal.S100000x128, .f32⟩ : BufTy).Contents (Elt Ideal))
    (s d : (⟨Cert.KernelIdeal.S1600000, .i32⟩ : BufTy).Contents (Elt Ideal))
    (w1 : (⟨Cert.KernelIdeal.S128x256, .f32⟩ : BufTy).Contents (Elt Ideal)) (b1 : (⟨Cert.KernelIdeal.S256, .f32⟩ : BufTy).Contents (Elt Ideal))
    (w2 : (⟨Cert.KernelIdeal.S256x64, .f32⟩ : BufTy).Contents (Elt Ideal)) :
    Cert.ReferenceIdeal.Read.val_main_v62 (F := Ideal) h s d w1 b1 w2
      = Cert.KernelIdeal.HostSide.agg2 (F := Ideal) (Cert.ReferenceIdeal.Read.val_main_v52 (F := Ideal) h s d w1 b1 w2) s d :=
  (Cert.ReferenceIdeal.RefSide.agg2_stage h s d w1 b1 w2).trans rfl

/-- The kernel program's convolution of the arguments is the reference's result term. -/
theorem conv_eq (h : (⟨Cert.KernelIdeal.S100000x128, .f32⟩ : BufTy).Contents (Elt Ideal))
    (s d : (⟨Cert.KernelIdeal.S1600000, .i32⟩ : BufTy).Contents (Elt Ideal))
    (w1 : (⟨Cert.KernelIdeal.S128x256, .f32⟩ : BufTy).Contents (Elt Ideal)) (b1 : (⟨Cert.KernelIdeal.S256, .f32⟩ : BufTy).Contents (Elt Ideal))
    (w2 : (⟨Cert.KernelIdeal.S256x64, .f32⟩ : BufTy).Contents (Elt Ideal)) (b2 : (⟨Cert.KernelIdeal.S64, .f32⟩ : BufTy).Contents (Elt Ideal)) :
    Cert.KernelIdeal.HostSide.conv h s d w1 b1 w2 b2 = Cert.ReferenceIdeal.Read.val_main_v68 (F := Ideal) h s d w1 b1 w2 b2 := by
  rw [Cert.ReferenceIdeal.RefSide.out_stage h s d w1 b1 w2 b2 Cert.KernelIdeal.Facts₀.shapeCasts_S100000_S100000x1
      Cert.KernelIdeal.Facts₀.shapeCasts_S64_S1x64,
    agg2_eq,
    Cert.ReferenceIdeal.RefSide.proj_stage h s d w1 b1 w2 Cert.KernelIdeal.Facts₀.concatenates_S100000x1_S100000x1_S100000x2_d1
      Cert.KernelIdeal.Facts₀.shapeCasts_S256_S1x256,
    agg1_eq, degNorm_13, degNorm_41, degNorm_48]
  rfl

end Cert.Bridge

end
-- ==== Proof.lean ====
/-
  A two-layer graph convolution (degree-normalised on both sides, with a rectifier between the layers) over a graph of
  100000 nodes and 1600000 edges: the kernel program against its reference, on the extended reals.

  The kernel program keeps the degree factors and the two edge-indexed neighbourhood sums on the host and runs the dense
  work in two launches over blocks of 5000 nodes: the first fuses the layer-0 projection, scaling, bias and rectifier with
  the scaled layer-1 projection; the second scales the second neighbourhood sum and adds the last bias. The reference
  does all of it with host operations. Entry by entry the two compute the same expression, in the same order: no
  algebraic law is needed, only that a matrix product into a zero accumulator is the plain sum, that the layout
  operations read where they should, and that a change of float format is the identity on extended reals. The claim is
  true for all inputs, so the finiteness precondition is never opened.

  The frames of the two kernel programs are the generated ones; the reference's frame is its generated run with the
  result dropped; the idealization rewrote nothing, so there is nothing to preserve.
-/
import proofs.«154429_j16252156248489_2_alg».proof.Defs
import proofs.«154429_j16252156248489_2_alg».proof.Proof.Gen.Kernel
import proofs.«154429_j16252156248489_2_alg».proof.Proof.Gen.Kernel.Frame
import proofs.«154429_j16252156248489_2_alg».proof.Proof.Gen.KernelIdeal
import proofs.«154429_j16252156248489_2_alg».proof.Proof.Gen.KernelIdeal.Frame
import proofs.«154429_j16252156248489_2_alg».proof.Proof.Gen.ReferenceIdeal
import proofs.«154429_j16252156248489_2_alg».proof.Proof.Gen.Pre_finite_inputs
import proofs.«154429_j16252156248489_2_alg».proof.Proof.Gen.ReferenceIdeal.Run
import proofs.«154429_j16252156248489_2_alg».proof.Proof.Gen.ReferenceIdeal.Read
import proofs.«154429_j16252156248489_2_alg».proof.Proof.KRun
import proofs.«154429_j16252156248489_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the convolution of the arguments in their result arrays. -/
theorem algebraic : Cert.algebraic_KernelIdeal_ReferenceIdeal := by
  intro m ρ m' ρ' _ hagree
  refine ⟨fun c => Cert.KernelIdeal.HostSide.conv
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.HostSide.result_value m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v68_eq, (hagree c).1, (hagree c).2.1, (hagree c).2.2.1, (hagree c).2.2.2.1,
      (hagree c).2.2.2.2.1, (hagree c).2.2.2.2.2.1, (hagree c).2.2.2.2.2.2]
    exact (Cert.Bridge.conv_eq _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
